-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) (main_arg2 : IVec S1600000 32) (main_arg3 : IVec S1600000 32) (main_arg4 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S100000x128 : Shape := ⟨2, ![100000, 128]⟩
abbrev S128x128 : Shape := ⟨2, ![128, 128]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩

abbrev nBuf : Space → Nat
  | .hbm => 45
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .i32⟩
  | .hbm, ⟨3, _⟩ => ⟨S1600000, .i32⟩
  | .hbm, ⟨4, _⟩ => ⟨S100000, .i32⟩
  | .hbm, ⟨5, _⟩ => ⟨S100000, .i32⟩
  | .hbm, ⟨6, _⟩ => ⟨S1700000, .i32⟩
  | .hbm, ⟨7, _⟩ => ⟨S1700000, .i32⟩
  | .hbm, ⟨8, _⟩ => ⟨S_, .f32⟩
  | .hbm, ⟨9, _⟩ => ⟨S1700000, .f32⟩
  | .hbm, ⟨10, _⟩ => ⟨S_, .f32⟩
  | .hbm, ⟨11, _⟩ => ⟨S100000, .f32⟩
  | .hbm, ⟨12, _⟩ => ⟨S1700000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000x128, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000x128, .f32⟩
  | .hbm, ⟨30, _⟩ => ⟨S_, .f32⟩
  | .hbm, ⟨31, _⟩ => ⟨S100000x128, .f32⟩
  | .hbm, ⟨32, _⟩ => ⟨S1700000x1, .i32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S_, .i32⟩
  | .hbm, ⟨37, _⟩ => ⟨S100000, .i32⟩
  | .hbm, ⟨38, _⟩ => ⟨S100000, .i1⟩
  | .hbm, ⟨39, _⟩ => ⟨S_, .i32⟩
  | .hbm, ⟨40, _⟩ => ⟨S100000, .i32⟩
  | .hbm, ⟨41, _⟩ => ⟨S100000, .i32⟩
  | .hbm, ⟨42, _⟩ => ⟨S100000, .i32⟩
  | .hbm, ⟨43, _⟩ => ⟨S100000x1, .i32⟩
  | .hbm, ⟨44, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  transposes_S128x128_S128x128_1_0 : S128x128.Transposes [1, 0] S128x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  gather_S100000x128_S100000x1_S100000x128_1_0_n_n_0_1_1128_wf : GatherDims.WF S100000x128 S100000x1 S100000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .i32⟩
  | .hbm, ⟨3, _⟩ => ⟨S1600000, .i32⟩
  | .hbm, ⟨4, _⟩ => ⟨S100000, .i32⟩
  | .hbm, ⟨5, _⟩ => ⟨S100000, .i32⟩
  | .hbm, ⟨6, _⟩ => ⟨S1700000, .i32⟩
  | .hbm, ⟨7, _⟩ => ⟨S1700000, .i32⟩
  | .hbm, ⟨8, _⟩ => ⟨S_, .f32⟩
  | .hbm, ⟨9, _⟩ => ⟨S1700000, .f32⟩
  | .hbm, ⟨10, _⟩ => ⟨S_, .f32⟩
  | .hbm, ⟨11, _⟩ => ⟨S100000, .f32⟩
  | .hbm, ⟨12, _⟩ => ⟨S1700000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000x128, .f32⟩
  | .hbm, ⟨21, _⟩ => ⟨S100000x128, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000x128, .f32⟩
  | .hbm, ⟨31, _⟩ => ⟨S_, .f32⟩
  | .hbm, ⟨32, _⟩ => ⟨S100000x128, .f32⟩
  | .hbm, ⟨33, _⟩ => ⟨S1700000x1, .i32⟩
  | .hbm, ⟨34, _⟩ => ⟨S100000x128, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S_, .i32⟩
  | .hbm, ⟨41, _⟩ => ⟨S100000, .i32⟩
  | .hbm, ⟨42, _⟩ => ⟨S100000, .i1⟩
  | .hbm, ⟨43, _⟩ => ⟨S_, .i32⟩
  | .hbm, ⟨44, _⟩ => ⟨S100000, .i32⟩
  | .hbm, ⟨45, _⟩ => ⟨S100000, .i32⟩
  | .hbm, ⟨46, _⟩ => ⟨S100000, .i32⟩
  | .hbm, ⟨47, _⟩ => ⟨S100000x1, .i32⟩
  | .hbm, ⟨48, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  gather_S100000x128_S100000x1_S100000x128_1_0_n_n_0_1_1128_wf : GatherDims.WF S100000x128 S100000x1 S100000x128 [1] [0] [] [0] [] 1 ![1, 128]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf

class Facts : Prop extends Facts₀ where

variable [Facts]
-- ==== Proof.FinalContents.lean ====
/-
  The whole program's run, with every buffer's final contents named.

  The program is seven segments: three stretches of host operations (the self-loop edge lists and the degree
  histogram; the clamp of the degrees from below by one; the reciprocal square root and its column), the
  pre-normalising region, a fourth stretch (the row gather along the edges and the scatter-add into the
  destination rows, the transpose of the weight), the post-normalising matrix-product region, and a last
  stretch (the row gather of the requested nodes). Each segment takes the core's unscoped buffers from one
  valuation to the next: a host stretch to the fold of its operations, a region to its entry contents with its
  arrays replaced by what its write-backs leave. Run from any launch memory the program therefore terminates
  with EVERY unscoped buffer at the last valuation of that chain. The frame claim keeps of this only the five
  argument buffers; a value claim needs the result buffer too, so the statement is made here once for all of
  them, at any float instance.
-/
import proofs.«160628_j24154896073115_1_alg».proof.Proof.Gen.KernelIdeal.Frame

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any launch memory with zero counters every weakly fair execution terminates, nothing faulting, and
    in the final state each unscoped buffer of each core holds the last valuation of the segment chain: the
    launch contents taken through the host stretches and the two regions in program order. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run, keeping the result buffer and the five argument buffers: the result at the last valuation,
    each argument as launched. -/
theorem run_result : θ_run defs (onTc (τ := τ) (main (F := F))) ⟨m, fun _ => 0, ρ⟩ (fun r => ∀ c : Dev nD,
      r.2.mem ((c.tc : Thread nD τ).loc main_v29) = W7 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨h c _ (mem_uc main_v29 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)
    (run_contents m ρ)

end Cert.KernelIdeal.Final

end
-- ==== Proof.PrenormArray.lean ====
/-
  The pre-normalising region: every row of the feature array scaled by that row's entry of a one-column array.

  The region's grid has twenty points; point t holds rows 5000·t … 5000·t + 4999 of the features (all 128
  columns), the same rows of the one-column scale array, and writes back the same rows of the output. The body
  multiplies each feature entry by its row's scale, the column broadcast along the 128 lanes. So what point t
  writes back is block t of ONE function of the two arrays the region finds,
      (r, k) ↦ x (r, k) · n (r, 0),
  and since the twenty blocks tile the 100000 rows the output array ends holding that function everywhere.
  Nothing here depends on what the entry contents are or on the float instance.
-/
import proofs.«160628_j24154896073115_1_alg».proof.Proof.Gen.KernelIdeal.Frame
import Idealize.ShloMosaic.Lib.Pipeline.Value

set_option maxRecDepth 16384

noncomputable section

namespace Cert.KernelIdeal.Prenorm

open Cert.KernelIdeal Cert.KernelIdeal.Gen
open Idealize.ShloMosaic Idealize.ShloMosaic.TcCoe Idealize.SL.Sem
open Idealize.ShloMosaic.Pipeline (Dat)

variable {F : FTy → Type} [FloatOps F]

/-- The entry of the one-column array that scales row `i 0`: same row, column zero. -/
abbrev rowScaleIdx (i : S100000x128.Idx) : S100000x1.Idx := fun a => match a with
  | ⟨0, _⟩ => ⟨(i 0).val, (i 0).isLt⟩
  | ⟨1, _⟩ => ⟨0, Nat.one_pos⟩

/-- The same inside one block of 5000 rows. -/
abbrev blockScaleIdx (j : S5000x128.Idx) : S5000x1.Idx := fun a => match a with
  | ⟨0, _⟩ => ⟨(j 0).val, (j 0).isLt⟩
  | ⟨1, _⟩ => ⟨0, Nat.one_pos⟩

/-- Rows scaled: entry (r, k) of `x` times entry (r, 0) of `n`. -/
def scaledRows (x : S100000x128.Idx → Elt F .f32) (n : S100000x1.Idx → Elt F .f32) : S100000x128.Idx → Elt F .f32 :=
  fun i => FloatOps.mulf (x i) (n (rowScaleIdx i))

theorem zero_offsets : (![0, 0] : Fin 2 → Nat) = fun _ => 0 := funext fun a => by fin_cases a <;> rfl

/-- The body's stored value at an entry of the block: the feature entry times its row's scale (the shape cast is
    the identity, the broadcast reads column zero of the same row). -/
theorem stored_apply (x0 : Vec F S5000x128 .f32) (x1 : Vec F S5000x1 .f32) (j : S5000x128.Idx) :
    k0_pay1 x0 x1 j = FloatOps.mulf (x0 j) (x1 (blockScaleIdx j)) := by
  unfold k0_pay1
  show FloatOps.mulf (x0 j) (broadcastTo S5000x128 (shapeCast S5000x1 x1 shapeCasts_S5000x1_S5000x1) broadcasts_S5000x1_S5000x128 j) = _
  rw [shapeCast_self]
  exact congrArg (FloatOps.mulf (x0 j)) (broadcastTo_apply x1 broadcasts_S5000x1_S5000x128 j (blockScaleIdx j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl]))

/-- The three windows move together along the rows: at every grid point the features' block, the scale column's
    block and the output's block have the same row-block index, and their column-block index is zero. -/
theorem blocks_aligned : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (1 : Fin 2) = 0 :=
  (by decide +kernel : ∀ t : Fin grid0.N, _)

/-- Each of the twenty row blocks of the output is some grid point's. -/
theorem every_row_block : ∀ q : Fin 20, ∃ t : Fin cfg0.N, win0_2.index t = ![q.val, 0] :=
  (by decide +kernel : ∀ q : Fin 20, ∃ t : Fin grid0.N, win0_2.index t = ![q.val, 0])

variable (V : (c : Dev nD) → (b : Ref sig .tc) → Buf (Elt F) ((c : Thread nD τ).loc b))

/-- What grid point `t` writes back is block `t` of the scaled rows of the two arrays the region finds. -/
theorem written_back (c : Dev nD) (t : Fin cfg0.N) :
    (dat0 V c).flushed 2 t = ((cfg0.win 2).blk t).view.read (Elt F) (scaledRows (V c main_arg0) (V c main_v9)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S5000x1) zero_offsets]
  obtain ⟨e0, e1, e2, e3, e4⟩ := blocks_aligned t
  funext j
  refine (stored_apply (iblk0 V c 0 t) (iblk0 V c 1 t) j).trans ?_
  show FloatOps.mulf (V c main_arg0 (((cfg0.win 0).blk t).view.emb j)) (V c main_v9 (((cfg0.win 1).blk t).view.emb (blockScaleIdx j)))
    = FloatOps.mulf (V c main_arg0 (((cfg0.win 2).blk t).view.emb j)) (V c main_v9 (rowScaleIdx (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (blockScaleIdx j) = rowScaleIdx (((cfg0.win 2).blk t).view.emb j) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  rw [h0, h1]

/-- An index of the output array is in point `t`'s block iff each coordinate is in the block's range. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v10).slice (win0_2.rect t)).set ↔ _
  rw [View.set_slice_whole, Rect.mem_set_unit]
  exact Iff.rfl

/-- The twenty blocks tile the array: row r is in the block of the point whose row-block index is r / 5000. -/
theorem blocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := every_row_block ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the region: the scaled rows of the two arrays the region finds. -/
theorem array_eq (c : Dev nD) :
    (dat0 V c).arrAt 2 cfg0.N = scaledRows (V c main_arg0) (V c main_v9) :=
  (dat0 V c).arrAt_eq_of_cover 2 (scaledRows (V c main_arg0) (V c main_v9)) (fun t _ => written_back V c t) blocks_cover

end Cert.KernelIdeal.Prenorm

end
-- ==== Proof.PostnormArray.lean ====
/-
  The post-normalising region: every row of the aggregated features scaled by its row's entry of the one-column
  array, then multiplied by a 128 × 128 matrix.

  The grid has twenty points; point t holds rows 5000·t … 5000·t + 4999 of the aggregated features and of the
  scale column, the whole matrix (its block never moves), and writes back the same rows of the output. The body
  scales the block's rows, narrows both factors to bfloat16 — no change of value on the extended reals — and
  takes the matrix product into a zero accumulator. On the extended reals that product is the plain sum over
  the contracted axis, so what point t writes back is block t of ONE function of the three arrays the region
  finds,
      (r, j) ↦ ∑ k, (h (r, k) · n (r, 0)) · w (k, j),
  and since the twenty blocks tile the 100000 rows the output array ends holding that function everywhere.
  No property of the entries is used: the sum is the same sum on both sides, term by term.
-/
import proofs.«160628_j24154896073115_1_alg».proof.Proof.PrenormArray
import Idealize.ShloMosaic.Lib.ValueIdx
import Idealize.ShloMosaic.PureOps.Ideal.Laws

set_option maxRecDepth 16384

noncomputable section

namespace Cert.KernelIdeal.Postnorm

open Cert.KernelIdeal Cert.KernelIdeal.Gen
open Cert.KernelIdeal.Prenorm (rowScaleIdx blockScaleIdx zero_offsets)
open Idealize.ShloMosaic Idealize.ShloMosaic.TcCoe Idealize.SL.Sem
open Idealize.ShloMosaic.Pipeline (Dat)

/-- The left factor's entry for term `k` of output entry `i`: same row, column `k`. -/
abbrev leftIdx (i : S100000x128.Idx) (k : Fin 128) : S100000x128.Idx := fun a => match a with
  | ⟨0, _⟩ => ⟨(i 0).val, (i 0).isLt⟩
  | ⟨1, _⟩ => ⟨k.val, k.isLt⟩

/-- The matrix's entry for term `k` of output entry `i`: row `k`, same column. -/
abbrev rightIdx (i : S100000x128.Idx) (k : Fin 128) : S128x128.Idx := fun a => match a with
  | ⟨0, _⟩ => ⟨k.val, k.isLt⟩
  | ⟨1, _⟩ => ⟨(i 1).val, (i 1).isLt⟩

/-- The same two inside one block of 5000 rows. -/
abbrev blockLeftIdx (j : S5000x128.Idx) (k : Fin 128) : S5000x128.Idx := fun a => match a with
  | ⟨0, _⟩ => ⟨(j 0).val, (j 0).isLt⟩
  | ⟨1, _⟩ => ⟨k.val, k.isLt⟩
abbrev blockRightIdx (j : S5000x128.Idx) (k : Fin 128) : S128x128.Idx := fun a => match a with
  | ⟨0, _⟩ => ⟨k.val, k.isLt⟩
  | ⟨1, _⟩ => ⟨(j 1).val, (j 1).isLt⟩

/-- Rows scaled, then the matrix product: entry (r, j) is the sum over k of (h (r, k) · n (r, 0)) · w (k, j). -/
def scaledRowsTimes (h : S100000x128.Idx → Elt Ideal .f32) (n : S100000x1.Idx → Elt Ideal .f32) (w : S128x128.Idx → Elt Ideal .f32) :
    S100000x128.Idx → Elt Ideal .f32 :=
  fun i => ∑ k : Fin 128, ((h (leftIdx i k) : EReal) * (n (rowScaleIdx (leftIdx i k)) : EReal)) * (w (rightIdx i k) : EReal)

/-! ## The contraction's operand indices, by coordinate -/

theorem left_row (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem left_col (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem right_row (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem right_col (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The scaled left factor at an entry of the block (the shape casts are the identity, the broadcast reads column
    zero of the same row, the narrowing changes no value). -/
theorem scaled_apply (x0 : Vec Ideal S5000x128 .f32) (x1 : Vec Ideal S5000x1 .f32) (y : S5000x128.Idx) :
    (truncf (F := Ideal) .bf16 (mulf (F := Ideal) (shapeCast S5000x128 x0 shapeCasts_S5000x128_S5000x128)
        (broadcastTo S5000x128 (shapeCast S5000x1 x1 shapeCasts_S5000x1_S5000x1) broadcasts_S5000x1_S5000x128)) bitsLt_bf16_f32 y : EReal)
      = (x0 y : EReal) * (x1 (blockScaleIdx y) : EReal) := by
  show (shapeCast S5000x128 x0 shapeCasts_S5000x128_S5000x128 y : EReal)
      * (broadcastTo S5000x128 (shapeCast S5000x1 x1 shapeCasts_S5000x1_S5000x1) broadcasts_S5000x1_S5000x128 y : EReal) = _
  rw [shapeCast_self, shapeCast_self]
  exact congrArg (fun b : EReal => (x0 y : EReal) * b) (broadcastTo_apply x1 broadcasts_S5000x1_S5000x128 y (blockScaleIdx y) (fun a => match a with
    | ⟨0, _⟩ => by show (y 0).val = if (5000 : Nat) = 1 then 0 else (y 0).val; rw [if_neg (by decide)]
    | ⟨1, _⟩ => by show 0 = if (1 : Nat) = 1 then 0 else (y 1).val; rw [if_pos rfl]))

/-- The narrowed matrix at an entry: the matrix's entry. -/
theorem matrix_apply (x2 : Vec Ideal S128x128 .f32) (z : S128x128.Idx) :
    (truncf (F := Ideal) .bf16 (shapeCast S128x128 x2 shapeCasts_S128x128_S128x128) bitsLt_bf16_f32 z : EReal) = (x2 z : EReal) := by
  show (shapeCast S128x128 x2 shapeCasts_S128x128_S128x128 z : EReal) = _
  rw [shapeCast_self]

/-- The body's stored value at an entry of the block: the sum over the contracted axis of the scaled row entries
    times the matrix entries. -/
theorem stored_apply (x0 : Vec Ideal S5000x128 .f32) (x1 : Vec Ideal S5000x1 .f32) (x2 : Vec Ideal S128x128 .f32) (j : S5000x128.Idx) :
    k1_pay1 x0 x1 x2 j
      = ∑ k : Fin 128, ((x0 (blockLeftIdx j k) : EReal) * (x1 (blockScaleIdx (blockLeftIdx j k)) : EReal)) * (x2 (blockRightIdx j k) : EReal) := by
  unfold k1_pay1
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blockLeftIdx j k := funext fun a => Fin.ext (by
    match a with
    | ⟨0, _⟩ => exact left_row _ _
    | ⟨1, _⟩ => exact (left_col _ _).trans hk)
  have er : dot_S5000x128_S128x128_S5000x128_1_0_0_1_n_n.rhsIdx j ((ValueIdx.contrEquiv1 dot_S5000x128_S128x128_S5000x128_1_0_0_1_n_n 128 rfl rfl).symm k) = blockRightIdx j k := funext fun a => Fin.ext (by
    match a with
    | ⟨0, _⟩ => exact (right_row _ _).trans hk
    | ⟨1, _⟩ => exact right_col _ _)
  rw [el, er]
  exact congrArg₂ (fun a b : EReal => a * b) (scaled_apply x0 x1 (blockLeftIdx j k)) (matrix_apply x2 (blockRightIdx j k))

/-- The features' block, the scale column's block and the output's block have the same row-block index at every
    grid point and column-block index zero; the matrix's block is always the whole matrix. -/
theorem blocks_aligned : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (1 : Fin 2) = 0 :=
  (by decide +kernel : ∀ t : Fin grid1.N, _)

/-- Each of the twenty row blocks of the output is some grid point's. -/
theorem every_row_block : ∀ q : Fin 20, ∃ t : Fin cfg1.N, win1_3.index t = ![q.val, 0] :=
  (by decide +kernel : ∀ q : Fin 20, ∃ t : Fin grid1.N, win1_3.index t = ![q.val, 0])

variable (V : (c : Dev nD) → (b : Ref sig .tc) → Buf (Elt Ideal) ((c : Thread nD τ).loc b))

/-- What grid point `t` writes back is block `t` of the scaled rows times the matrix, of the three arrays the
    region finds. -/
theorem written_back (c : Dev nD) (t : Fin cfg1.N) :
    (dat1 V c).flushed 3 t
      = ((cfg1.win 3).blk t).view.read (Elt Ideal) (scaledRowsTimes (V c main_v20) (V c main_v9) (V c main_v21)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S5000x1) zero_offsets,
    View.ld_unit_zero (S := S128x128) zero_offsets]
  obtain ⟨e0, e1, e2, e3, e4, e5, e6⟩ := blocks_aligned t
  funext j
  refine (stored_apply (iblk1 V c 0 t) (iblk1 V c 1 t) (iblk1 V c 2 t) j).trans ?_
  show _ = scaledRowsTimes (V c main_v20) (V c main_v9) (V c main_v21) (((cfg1.win 3).blk t).view.emb j)
  unfold scaledRowsTimes
  refine Finset.sum_congr rfl fun k _ => ?_
  have h0 : ((cfg1.win 0).blk t).view.emb (blockLeftIdx j k) = leftIdx (((cfg1.win 3).blk t).view.emb j) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : ((cfg1.win 1).blk t).view.emb (blockScaleIdx (blockLeftIdx j k)) = rowScaleIdx (leftIdx (((cfg1.win 3).blk t).view.emb j) k) := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  have h2 : ((cfg1.win 2).blk t).view.emb (blockRightIdx j k) = rightIdx (((cfg1.win 3).blk t).view.emb j) k := by
    funext a; apply Fin.ext
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  have r0 : @Eq EReal (iblk1 V c 0 t (blockLeftIdx j k)) (V c main_v20 (leftIdx (((cfg1.win 3).blk t).view.emb j) k)) := by
    show @Eq EReal (V c main_v20 (((cfg1.win 0).blk t).view.emb (blockLeftIdx j k))) _
    rw [h0]
  have r1 : @Eq EReal (iblk1 V c 1 t (blockScaleIdx (blockLeftIdx j k))) (V c main_v9 (rowScaleIdx (leftIdx (((cfg1.win 3).blk t).view.emb j) k))) := by
    show @Eq EReal (V c main_v9 (((cfg1.win 1).blk t).view.emb (blockScaleIdx (blockLeftIdx j k)))) _
    rw [h1]
  have r2 : @Eq EReal (iblk1 V c 2 t (blockRightIdx j k)) (V c main_v21 (rightIdx (((cfg1.win 3).blk t).view.emb j) k)) := by
    show @Eq EReal (V c main_v21 (((cfg1.win 2).blk t).view.emb (blockRightIdx j k))) _
    rw [h2]
  exact congrArg₂ (fun a b : EReal => a * b) (congrArg₂ (fun a b : EReal => a * b) r0 r1) r2

/-- An index of the output array is in point `t`'s block iff each coordinate is in the block's range. -/
theorem mem_block (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v22).slice (win1_3.rect t)).set ↔ _
  rw [View.set_slice_whole, Rect.mem_set_unit]
  exact Iff.rfl

/-- The twenty blocks tile the array: row r is in the block of the point whose row-block index is r / 5000. -/
theorem blocks_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := every_row_block ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE OUTPUT ARRAY after the region: the scaled rows times the matrix, of the three arrays the region finds. -/
theorem array_eq (c : Dev nD) :
    (dat1 V c).arrAt 3 cfg1.N = scaledRowsTimes (V c main_v20) (V c main_v9) (V c main_v21) :=
  (dat1 V c).arrAt_eq_of_cover 3 (scaledRowsTimes (V c main_v20) (V c main_v9) (V c main_v21)) (fun t _ => written_back V c t) blocks_cover

end Cert.KernelIdeal.Postnorm

end
-- ==== Proof.Bridge.lean ====
/-
  The kernel program's result is the reference's result, as functions of the five launch arrays.

  Both programs build the same graph data on the host: the edge lists with one self loop per node appended,
  the in-degree histogram (a scatter-add of ones), its clamp from below by one, the reciprocal square root,
  written as a one-column array n. Both then compute, for the feature array x and the weight w,
      out = gather_rows ( (scatter_add_rows (gather_rows (x ⊙ n)) ⊙ n) · wᵀ ),
  where ⊙ scales row r by n (r, 0). The reference does every step on the host. The kernel program does the two
  row scalings — and the matrix product with the second — in two tiled regions, and everything else on the host
  with the very same operations on the very same index arrays.

  So the proof walks the kernel program's chain of buffer valuations and names what it meets by the
  reference's own stages: the scale column and the edge lists when the first region is entered; the first
  region's output array, which is the reference's pre-normalised features entry by entry; the gathered and
  scattered features, the scale column and the transposed weight when the second region is entered (the
  gather and the scatter-add are the same functions applied to equal arrays, and are never opened); the second
  region's output array, which is the reference's matrix product entry by entry, both being the same sum over
  the contracted axis of the same products; and the final row gather. No property of the entries is used.
-/
import proofs.«160628_j24154896073115_1_alg».proof.Proof.FinalContents
import proofs.«160628_j24154896073115_1_alg».proof.Proof.PostnormArray
import proofs.«160628_j24154896073115_1_alg».proof.Proof.Gen.ReferenceIdeal.Read
import Idealize.ShloMosaic.Lib.StableHlo.Run

set_option maxRecDepth 16384

noncomputable section

namespace Cert.KernelIdeal.Bridge

open Cert.KernelIdeal Cert.KernelIdeal.Gen
open Cert.KernelIdeal.Prenorm (rowScaleIdx scaledRows)
open Cert.KernelIdeal.Postnorm (leftIdx rightIdx scaledRowsTimes)
open Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The five launch arrays of core `c`: features, weight, edge sources, edge destinations, requested nodes. -/
abbrev feats := m ((c : Thread nD τ).loc main_arg0)
abbrev weight := m ((c : Thread nD τ).loc main_arg1)
abbrev srcs := m ((c : Thread nD τ).loc main_arg2)
abbrev dsts := m ((c : Thread nD τ).loc main_arg3)
abbrev nodes := m ((c : Thread nD τ).loc main_arg4)

/-! ## When the first region is entered -/

/-- The clamp stretch from ANY contents `U`, given what `U` holds at the two buffers it reads: the degrees clamped
    from below by the broadcast constant. (Over a variable valuation and variable operands: the three operations
    are read without opening what they are applied to.) -/
theorem clamp_stage (U : Valuation τ sig (Elt Ideal))
    (one : FVec Ideal S_ .f32) (deg : FVec Ideal S100000 .f32)
    (h1 : U (Proc.devRef .tc main_cst_1) = one) (h6 : U (Proc.devRef .tc main_v6) = deg) :
    StableHlo.after hostOps0_1 U (Proc.devRef .tc main_v7)
      = maximumf (F := Ideal) (broadcastInDim S100000 ![] bcast_S_S100000 (id one)) deg := by
  subst h1 h6
  dsimp only [hostOps0_1]
  after_results <;> rfl

/-- The last stretch before the first region from ANY contents `U`, given what `U` holds at the buffer it reads:
    the reciprocal square root, as a column. -/
theorem rsqrt_stage (U : Valuation τ sig (Elt Ideal)) (clamped : FVec Ideal S100000 .f32)
    (h7 : U (Proc.devRef .tc main_v7) = clamped) :
    StableHlo.after hostOps0_2 U (Proc.devRef .tc main_v9)
      = broadcastInDim S100000x1 ![0] bcast_S100000_S100000x1_0 (Host.rsqrt (F := Ideal) clamped) := by
  subst h7
  dsimp only [hostOps0_2]
  after_results <;> rfl

/-- After the first stretch: the in-degree histogram and the clamp's constant are the reference's. -/
theorem degrees : W1 m ρ c (Proc.devRef .tc main_v6) = val_main_v6 (F := Ideal) (dsts m c) := by
  dsimp only [W1, hostOps0]
  after_results <;> rfl
theorem clampConst : W1 m ρ c (Proc.devRef .tc main_cst_1) = val_main_cst_1 (F := Ideal) := by
  dsimp only [W1, hostOps0]
  after_results <;> rfl

/-- The features are as launched. -/
theorem entry0_feats : W3 m ρ c (Proc.devRef .tc main_arg0) = feats m c := by
  dsimp only [W3, W2, W1, hostOps0, hostOps0_1, hostOps0_2]
  after_results <;> rfl

/-- The scale column is the reference's: the reciprocal square root of the clamped in-degrees, as a column. -/
theorem entry0_scale : W3 m ρ c (Proc.devRef .tc main_v9) = val_main_v9 (F := Ideal) (dsts m c) := by
  refine (rsqrt_stage (W2 m ρ c) _
    (clamp_stage (W1 m ρ c) _ _ (clampConst m ρ c) (degrees m ρ c))).trans ?_
  rfl

/-- The edge sources with the self loops appended, -/
theorem entry0_srcAll : W3 m ρ c (Proc.devRef .tc main_v1) = val_main_v1 (F := Ideal) (srcs m c) := by
  dsimp only [W3, W2, W1, hostOps0, hostOps0_1, hostOps0_2]
  after_results <;> rfl

/-- the edge destinations with the self loops appended, -/
theorem entry0_dstAll : W3 m ρ c (Proc.devRef .tc main_v2) = val_main_v2 (F := Ideal) (dsts m c) := by
  dsimp only [W3, W2, W1, hostOps0, hostOps0_1, hostOps0_2]
  after_results <;> rfl

/-- the weight and the requested nodes, as launched. -/
theorem entry0_weight : W3 m ρ c (Proc.devRef .tc main_arg1) = weight m c := by
  dsimp only [W3, W2, W1, hostOps0, hostOps0_1, hostOps0_2]
  after_results <;> rfl
theorem entry0_nodes : W3 m ρ c (Proc.devRef .tc main_arg4) = nodes m c := by
  dsimp only [W3, W2, W1, hostOps0, hostOps0_1, hostOps0_2]
  after_results <;> rfl

/-! ## When the first region is left -/

/-- The reference's broadcast of the scale column along the lanes reads, at (r, k), the column's entry (r, 0). -/
theorem rowScaleIdx_eq (i : S100000x128.Idx) : rowScaleIdx i = idx_main_v10 i :=
  funext fun a => by match a with | ⟨0, _⟩ => rfl | ⟨1, _⟩ => rfl

/-- THE FIRST REGION'S OUTPUT is the reference's pre-normalised features: entry (r, k) of the features times
    entry (r, 0) of the scale column, on both sides. -/
theorem prenormed : W4 m ρ c (Proc.devRef .tc main_v10) = val_main_v11 (F := Ideal) (feats m c) (dsts m c) := by
  refine (W4_arr m ρ c 2).trans ((Prenorm.array_eq (V3 m ρ) c).trans ?_)
  refine (congrArg₂ scaledRows (entry0_feats m ρ c) (entry0_scale m ρ c)).trans ?_
  funext i
  rw [val_main_v11_apply, val_main_v10_apply, ← rowScaleIdx_eq]
  rfl

/-- The first region writes none of these: the scale column (an input of the region: its array is as entered), -/
theorem exit0_scale : W4 m ρ c (Proc.devRef .tc main_v9) = val_main_v9 (F := Ideal) (dsts m c) :=
  (W4_arr m ρ c 1).trans (((dat0 (V3 m ρ) c).arrAt_in 1 rfl _).trans ((A_eq0 (V3 m ρ) c 1).trans (entry0_scale m ρ c)))
/-- the two edge lists, the weight, the requested nodes. -/
theorem exit0_srcAll : W4 m ρ c (Proc.devRef .tc main_v1) = val_main_v1 (F := Ideal) (srcs m c) :=
  (W4_of_ne m ρ c main_v1 (by decide)).trans (entry0_srcAll m ρ c)
theorem exit0_dstAll : W4 m ρ c (Proc.devRef .tc main_v2) = val_main_v2 (F := Ideal) (dsts m c) :=
  (W4_of_ne m ρ c main_v2 (by decide)).trans (entry0_dstAll m ρ c)
theorem exit0_weight : W4 m ρ c (Proc.devRef .tc main_arg1) = weight m c :=
  (W4_of_ne m ρ c main_arg1 (by decide)).trans (entry0_weight m ρ c)
theorem exit0_nodes : W4 m ρ c (Proc.devRef .tc main_arg4) = nodes m c :=
  (W4_of_ne m ρ c main_arg4 (by decide)).trans (entry0_nodes m ρ c)

/-! ## When the second region is entered -/

/-- The aggregated features are the reference's: the same scatter-add, along the same destinations, of the same
    gather, along the same sources, of equal arrays. -/
theorem entry1_aggregated : W5 m ρ c (Proc.devRef .tc main_v20) = val_main_v21 (F := Ideal) (feats m c) (srcs m c) (dsts m c) := by
  dsimp only [W5, hostOps1]
  after_results
  rw [prenormed m ρ c, exit0_srcAll m ρ c, exit0_dstAll m ρ c]
  rfl

/-- The scale column is still the reference's. -/
theorem entry1_scale : W5 m ρ c (Proc.devRef .tc main_v9) = val_main_v9 (F := Ideal) (dsts m c) := by
  dsimp only [W5, hostOps1]
  after_results
  exact exit0_scale m ρ c

/-- The matrix is the reference's transposed weight. -/
theorem entry1_matrix : W5 m ρ c (Proc.devRef .tc main_v21) = val_main_v25 (F := Ideal) (weight m c) := by
  dsimp only [W5, hostOps1]
  after_results
  rw [exit0_weight m ρ c]
  rfl

/-- The requested nodes, as launched. -/
theorem entry1_nodes : W5 m ρ c (Proc.devRef .tc main_arg4) = nodes m c := by
  dsimp only [W5, hostOps1]
  after_results
  exact exit0_nodes m ρ c

/-! ## When the second region is left -/

theorem leftIdx_eq (i : S100000x128.Idx) (k : Fin 128) : leftIdx i k = lidx_main_v26 i k :=
  funext fun a => by match a with | ⟨0, _⟩ => rfl | ⟨1, _⟩ => rfl
theorem rightIdx_eq (i : S100000x128.Idx) (k : Fin 128) : rightIdx i k = ridx_main_v26 i k :=
  funext fun a => by match a with | ⟨0, _⟩ => rfl | ⟨1, _⟩ => rfl
theorem rowScaleIdx_eq' (i : S100000x128.Idx) : rowScaleIdx i = idx_main_v23 i :=
  funext fun a => by match a with | ⟨0, _⟩ => rfl | ⟨1, _⟩ => rfl

/-- THE SECOND REGION'S OUTPUT is the reference's matrix product: at (r, j) both are the sum over k of
    (aggregated (r, k) · scale (r, 0)) · weightᵀ (k, j). -/
theorem postnormed : W6 m ρ c (Proc.devRef .tc main_v22)
    = val_main_v26 (F := Ideal) (feats m c) (weight m c) (srcs m c) (dsts m c) := by
  refine (W6_arr m ρ c 3).trans ((Postnorm.array_eq (V5 m ρ) c).trans ?_)
  refine (congr (congrArg₂ scaledRowsTimes (entry1_aggregated m ρ c) (entry1_scale m ρ c)) (entry1_matrix m ρ c)).trans ?_
  funext i
  rw [val_main_v26_apply]
  refine Finset.sum_congr rfl fun k _ => ?_
  rw [val_main_v24_apply, val_main_v23_apply, ← leftIdx_eq, ← rightIdx_eq, ← rowScaleIdx_eq']
  rfl

/-- The requested nodes, as launched (the second region does not write them). -/
theorem exit1_nodes : W6 m ρ c (Proc.devRef .tc main_arg4) = nodes m c :=
  (W6_of_ne m ρ c main_arg4 (by decide)).trans (entry1_nodes m ρ c)

/-! ## The result -/

/-- THE RESULT BUFFER at the end of the run is the reference's result stage of the launch arrays: the same row
    gather, along the same wrapped node indices, of equal arrays. -/
theorem result_contents : W7 m ρ c (Proc.devRef .tc main_v29)
    = val_main_v33 (F := Ideal) (feats m c) (weight m c) (srcs m c) (dsts m c) (nodes m c) := by
  dsimp only [W7, hostOps2]
  after_results
  rw [postnormed m ρ c, exit1_nodes m ρ c]
  rfl

/-- The kernel program's run, read: it terminates with its result at the reference's result stage of the launch
    arrays and with the launch arrays unchanged. -/
theorem run : θ_run defs (onTc (τ := τ) (main (F := Ideal))) ⟨m, fun _ => 0, ρ⟩ (fun r => ∀ c : Dev nD,
      r.2.mem ((c.tc : Thread nD τ).loc main_v29)
        = val_main_v33 (F := Ideal) (feats m c) (weight m c) (srcs m c) (dsts m c) (nodes m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_contents m ρ c), (h c).2⟩)
    (Cert.KernelIdeal.Final.run_result (F := Ideal) m ρ)

end Cert.KernelIdeal.Bridge

end
-- ==== Proof.lean ====
/-
  A one-layer simplified graph convolution with self loops, followed by a row gather: for node features x
  (100000 × 128), a weight w (128 × 128), 1.6 million edges (src → dst) and a list of requested nodes,
      out = ( D^{-1/2} · A · D^{-1/2} · x · wᵀ ) [requested nodes],
  where A is the adjacency with one self loop per node added, D its in-degree clamped from below by one.
  Written out: n = (clamp of the degree histogram)^{-1/2} as a column; the features' rows are scaled by n,
  gathered along the edge sources, scatter-added into the edge destinations, scaled by n again, multiplied by
  wᵀ, and the requested rows are gathered.

  The reference does all of it with host operations. The kernel program does the two row scalings in tiled
  regions of twenty blocks of 5000 rows (the second together with the matrix product, its factors narrowed to
  bfloat16 on the way in) and everything else with the same host operations on the same index arrays.

  On the extended reals the two programs are equal array by array: narrowing is the identity, a matrix
  product into a zero accumulator is the plain sum over the contracted axis — the same sum of the same products
  as the host's — and a tiled row scaling is the row scaling. No algebraic law beyond that is used and no
  property of the inputs: the precondition is never opened.

    * FinalContents  — the kernel program's run with every buffer's final contents named;
    * PrenormArray   — the first region's output array as one function of its entry contents;
    * PostnormArray  — the second region's output array as one function of its entry contents;
    * Bridge         — the chain of valuations read against the reference's stages, and the kernel's run restated
                       with the reference's result stage as its result.
  The three frames are the generated ones (the reference's is its generated run with the result dropped); the
  idealization rewrote no operation, so there is nothing to preserve.
-/
import proofs.«160628_j24154896073115_1_alg».proof.Defs
import proofs.«160628_j24154896073115_1_alg».proof.Proof.Gen.Kernel
import proofs.«160628_j24154896073115_1_alg».proof.Proof.Gen.Kernel.Frame
import proofs.«160628_j24154896073115_1_alg».proof.Proof.Gen.KernelIdeal
import proofs.«160628_j24154896073115_1_alg».proof.Proof.Gen.KernelIdeal.Frame
import proofs.«160628_j24154896073115_1_alg».proof.Proof.Gen.ReferenceIdeal
import proofs.«160628_j24154896073115_1_alg».proof.Proof.Gen.ReferenceIdeal.Run
import proofs.«160628_j24154896073115_1_alg».proof.Proof.Gen.ReferenceIdeal.Read
import proofs.«160628_j24154896073115_1_alg».proof.Proof.Gen.Pre_finite_inputs
import proofs.«160628_j24154896073115_1_alg».proof.Proof.Bridge
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with the same result array: the kernel
    program's is the reference's result stage of ITS launch arrays, the reference's run ends at the same stage of
    its own, and the launch arrays agree. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
